-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S300000 : Shape := ⟨1, ![300000]⟩
abbrev S512x256 : Shape := ⟨2, ![512, 256]⟩
abbrev S512 : Shape := ⟨1, ![512]⟩
abbrev S512x512 : Shape := ⟨2, ![512, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000 : S_.BroadcastsInDim S300000 (![] : Fin 0 → Fin S300000.rank)
  reducesTo_S300000_S_d0 : S300000.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  reducesTo_S_S_d : S_.ReducesTo [] S_

variable [Facts]

def fn_part1 {F : FTy → Type} [FloatOps F] (main_arg5 : FVec F S512x512 .f32) (main_arg6 : FVec F S512 .f32) (main_arg7 : FVec F S_ .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S_ .f32 := Host.absf main_arg7
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  main_v32

def fn {F : FTy → Type} [FloatOps F] (main_arg0 : FVec F S50000x256 .f32) (main_arg1 : IVec S2x300000 32) (main_arg2 : FVec F S300000 .f32) (main_arg3 : FVec F S512x256 .f32) (main_arg4 : FVec F S512 .f32) (main_arg5 : FVec F S512x512 .f32) (main_arg6 : FVec F S512 .f32) (main_arg7 : FVec F S_ .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S300000 .f32 := Host.absf main_arg2
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S50000x256 : Shape := ⟨2, ![50000, 256]⟩
abbrev S2x300000 : Shape := ⟨2, ![2, 300000]⟩
abbrev S300000 : Shape := ⟨1, ![300000]⟩
abbrev S512x256 : Shape := ⟨2, ![512, 256]⟩
abbrev S512 : Shape := ⟨1, ![512]⟩
abbrev S512x512 : Shape := ⟨2, ![512, 512]⟩
abbrev S_ : Shape := ⟨0, ![]⟩
abbrev S1x300000 : Shape := ⟨2, ![1, 300000]⟩
abbrev S256x512 : Shape := ⟨2, ![256, 512]⟩
abbrev S50000x512 : Shape := ⟨2, ![50000, 512]⟩
abbrev S2000x256 : Shape := ⟨2, ![2000, 256]⟩
abbrev S2000x512 : Shape := ⟨2, ![2000, 512]⟩
abbrev S50000 : Shape := ⟨1, ![50000]⟩
abbrev S350000 : Shape := ⟨1, ![350000]⟩
abbrev S350000x1 : Shape := ⟨2, ![350000, 1]⟩
abbrev S350000x512 : Shape := ⟨2, ![350000, 512]⟩
abbrev S1x512 : Shape := ⟨2, ![1, 512]⟩

abbrev nBuf : Space → Nat
  | .hbm => 136
  | .vmem => 10
  | .smem => 0
  | _ => 0

abbrev hbmTy0_0 (i : Nat) : BufTy := match i % 128 with
  | 0 => ⟨S50000x256, .f32⟩
  | 1 => ⟨S2x300000, .i32⟩
  | 2 => ⟨S300000, .f32⟩
  | 3 => ⟨S512x256, .f32⟩
  | 4 => ⟨S512, .f32⟩
  | 5 => ⟨S512x512, .f32⟩
  | 6 => ⟨S512, .f32⟩
  | 7 => ⟨S_, .f32⟩
  | 8 => ⟨S1x300000, .i32⟩
  | 9 => ⟨S300000, .i32⟩
  | 10 => ⟨S1x300000, .i32⟩
  | 11 => ⟨S300000, .i32⟩
  | 12 => ⟨S256x512, .f32⟩
  | 13 => ⟨S50000x512, .f32⟩
  | 14 => ⟨S50000, .i32⟩
  | 15 => ⟨S350000, .i32⟩
  | 16 => ⟨S350000, .i32⟩
  | 17 => ⟨S_, .f32⟩
  | 18 => ⟨S50000, .f32⟩
  | 19 => ⟨S350000, .f32⟩
  | 20 => ⟨S_, .f32⟩
  | 21 => ⟨S50000, .f32⟩
  | 22 => ⟨S350000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S350000, .i32⟩
  | 34 => ⟨S350000, .i1⟩
  | 35 => ⟨S_, .i32⟩
  | 36 => ⟨S350000, .i32⟩
  | 37 => ⟨S350000, .i32⟩
  | 38 => ⟨S350000, .i32⟩
  | 39 => ⟨S350000x1, .i32⟩
  | 40 => ⟨S350000, .f32⟩
  | 41 => ⟨S350000, .f32⟩
  | 42 => ⟨S_, .i32⟩
  | 43 => ⟨S350000, .i32⟩
  | 44 => ⟨S350000, .i1⟩
  | 45 => ⟨S_, .i32⟩
  | 46 => ⟨S350000, .i32⟩
  | 47 => ⟨S350000, .i32⟩
  | 48 => ⟨S350000, .i32⟩
  | 49 => ⟨S350000x1, .i32⟩
  | 50 => ⟨S350000, .f32⟩
  | 51 => ⟨S350000, .f32⟩
  | 52 => ⟨S350000x1, .f32⟩
  | 53 => ⟨S_, .i32⟩
  | 54 => ⟨S350000, .i32⟩
  | 55 => ⟨S350000, .i1⟩
  | 56 => ⟨S_, .i32⟩
  | 57 => ⟨S350000, .i32⟩
  | 58 => ⟨S350000, .i32⟩
  | 59 => ⟨S350000, .i32⟩
  | 60 => ⟨S350000x1, .i32⟩
  | 61 => ⟨S350000x512, .f32⟩
  | 62 => ⟨S350000x512, .f32⟩
  | 63 => ⟨S350000x512, .f32⟩
  | 64 => ⟨S_, .f32⟩
  | 65 => ⟨S50000x512, .f32⟩
  | 66 => ⟨S350000x1, .i32⟩
  | 67 => ⟨S50000x512, .f32⟩
  | 68 => ⟨S1x512, .f32⟩
  | 69 => ⟨S50000x512, .f32⟩
  | 70 => ⟨S50000x512, .f32⟩
  | 71 => ⟨S_, .f32⟩
  | 72 => ⟨S50000x512, .f32⟩
  | 73 => ⟨S50000x512, .i1⟩
  | 74 => ⟨S50000x512, .f32⟩
  | 75 => ⟨S50000x512, .f32⟩
  | 76 => ⟨S50000x512, .f32⟩
  | 77 => ⟨S512x512, .f32⟩
  | 78 => ⟨S50000x512, .f32⟩
  | 79 => ⟨S50000, .i32⟩
  | 80 => ⟨S350000, .i32⟩
  | 81 => ⟨S350000, .i32⟩
  | 82 => ⟨S_, .f32⟩
  | 83 => ⟨S50000, .f32⟩
  | 84 => ⟨S350000, .f32⟩
  | 85 => ⟨S_, .f32⟩
  | 86 => ⟨S50000, .f32⟩
  | 87 => ⟨S350000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S350000, .i32⟩
  | 99 => ⟨S350000, .i1⟩
  | 100 => ⟨S_, .i32⟩
  | 101 => ⟨S350000, .i32⟩
  | 102 => ⟨S350000, .i32⟩
  | 103 => ⟨S350000, .i32⟩
  | 104 => ⟨S350000x1, .i32⟩
  | 105 => ⟨S350000, .f32⟩
  | 106 => ⟨S350000, .f32⟩
  | 107 => ⟨S_, .i32⟩
  | 108 => ⟨S350000, .i32⟩
  | 109 => ⟨S350000, .i1⟩
  | 110 => ⟨S_, .i32⟩
  | 111 => ⟨S350000, .i32⟩
  | 112 => ⟨S350000, .i32⟩
  | 113 => ⟨S350000, .i32⟩
  | 114 => ⟨S350000x1, .i32⟩
  | 115 => ⟨S350000, .f32⟩
  | 116 => ⟨S350000, .f32⟩
  | 117 => ⟨S350000x1, .f32⟩
  | 118 => ⟨S_, .i32⟩
  | 119 => ⟨S350000, .i32⟩
  | 120 => ⟨S350000, .i1⟩
  | 121 => ⟨S_, .i32⟩
  | 122 => ⟨S350000, .i32⟩
  | 123 => ⟨S350000, .i32⟩
  | 124 => ⟨S350000, .i32⟩
  | 125 => ⟨S350000x1, .i32⟩
  | 126 => ⟨S350000x512, .f32⟩
  | 127 => ⟨S350000x512, .f32⟩
  | _ => ⟨S50000x256, .f32⟩

abbrev hbmTy0_1 (i : Nat) : BufTy := match i % 128 with
  | 0 => ⟨S350000x512, .f32⟩
  | 1 => ⟨S_, .f32⟩
  | 2 => ⟨S50000x512, .f32⟩
  | 3 => ⟨S350000x1, .i32⟩
  | 4 => ⟨S50000x512, .f32⟩
  | 5 => ⟨S1x512, .f32⟩
  | 6 => ⟨S50000x512, .f32⟩
  | 7 => ⟨S50000x512, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .f32⟩
  | .local _ .vmem, ⟨8, _⟩ => ⟨S2000x512, .f32⟩
  | .local _ .vmem, ⟨9, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_call4_v0 : Ref sig .tc := ⟨.hbm, 94, rfl⟩
abbrev main_call4_v1 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_18 : Ref sig .tc := ⟨.hbm, 118, rfl⟩
abbrev main_v86 : Ref sig .tc := ⟨.hbm, 119, rfl⟩
abbrev main_v87 : Ref sig .tc := ⟨.hbm, 120, rfl⟩
abbrev main_c_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  transposes_S512x256_S256x512_1_0 : S512x256.Transposes [1, 0] S256x512
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x512_S2000x512_0_0 : ∀ a, (![0, 0] : Fin 2 → Nat) a + S2000x512.size a ≤ S2000x512.size a
  h_S2000x512 : 0 < S2000x512.numel
  concatenates_S300000_S50000_S350000_d0 : Shape.Concatenates [S300000, S50000] S350000 0
  bcast_S_S50000 : S_.BroadcastsInDim S50000 (![] : Fin 0 → Fin S50000.rank)
  bcast_S350000_S350000x1_0 : S350000.BroadcastsInDim S350000x1 (![0] : Fin 1 → Fin S350000x1.rank)
  bcast_S_S350000 : S_.BroadcastsInDim S350000 (![] : Fin 0 → Fin S350000.rank)
  bcast_S350000x1_S350000x512_0_1 : S350000x1.BroadcastsInDim S350000x512 (![0, 1] : Fin 2 → Fin S350000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  transposes_S512x512_S512x512_1_0 : S512x512.Transposes [1, 0] S512x512
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2000x256_S256x512_S2000x512_1_0_0_1_n_n_wf : DotDims.WF S2000x256 S256x512 S2000x512 [1] [0] [0] [1] [] []
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  gather_S50000x512_S350000x1_S350000x512_1_0_n_n_0_1_1512_wf : GatherDims.WF S50000x512 S350000x1 S350000x512 [1] [0] [] [0] [] 1 ![1, 512]
  scatter_S50000x512_S350000x1_S350000x512_1_0_0_1_wf : ScatterDims.WF S50000x512 S350000x1 S350000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def gather_S50000x512_S350000x1_S350000x512_1_0_n_n_0_1_1512 : GatherDims S50000x512 S350000x1 S350000x512 where
  offsetDims := [1]
  collapsedSliceDims := [0]
  operandBatchingDims := []
  startIndicesBatchingDims := []
  startIndexMap := [0]
  indexVectorDim := 1
  sliceSizes := ![1, 512]
  wf := gather_S50000x512_S350000x1_S350000x512_1_0_n_n_0_1_1512_wf
def scatter_S50000x512_S350000x1_S350000x512_1_0_0_1 : ScatterDims S50000x512 S350000x1 S350000x512 where
  updateWindowDims := [1]
  insertedWindowDims := [0]
  scatterDimsToOperandDims := [0]
  indexVectorDim := 1
  wf := scatter_S50000x512_S350000x1_S350000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S300000 : Shape := ⟨1, ![300000]⟩
abbrev S512x256 : Shape := ⟨2, ![512, 256]⟩
abbrev S512 : Shape := ⟨1, ![512]⟩
abbrev S512x512 : Shape := ⟨2, ![512, 512]⟩
abbrev S_ : Shape := ⟨0, ![]⟩
abbrev S1x300000 : Shape := ⟨2, ![1, 300000]⟩
abbrev S256x512 : Shape := ⟨2, ![256, 512]⟩
abbrev S50000x512 : Shape := ⟨2, ![50000, 512]⟩
abbrev S50000 : Shape := ⟨1, ![50000]⟩
abbrev S350000 : Shape := ⟨1, ![350000]⟩
abbrev S350000x1 : Shape := ⟨2, ![350000, 1]⟩
abbrev S350000x512 : Shape := ⟨2, ![350000, 512]⟩
abbrev S1x512 : Shape := ⟨2, ![1, 512]⟩

abbrev nBuf : Space → Nat
  | .hbm => 136
  | .vmem => 0
  | .smem => 0
  | _ => 0

abbrev hbmTy0_0 (i : Nat) : BufTy := match i % 128 with
  | 0 => ⟨S50000x256, .f32⟩
  | 1 => ⟨S2x300000, .i32⟩
  | 2 => ⟨S300000, .f32⟩
  | 3 => ⟨S512x256, .f32⟩
  | 4 => ⟨S512, .f32⟩
  | 5 => ⟨S512x512, .f32⟩
  | 6 => ⟨S512, .f32⟩
  | 7 => ⟨S_, .f32⟩
  | 8 => ⟨S1x300000, .i32⟩
  | 9 => ⟨S300000, .i32⟩
  | 10 => ⟨S1x300000, .i32⟩
  | 11 => ⟨S300000, .i32⟩
  | 12 => ⟨S256x512, .f32⟩
  | 13 => ⟨S50000x512, .f32⟩
  | 14 => ⟨S50000, .i32⟩
  | 15 => ⟨S350000, .i32⟩
  | 16 => ⟨S350000, .i32⟩
  | 17 => ⟨S_, .f32⟩
  | 18 => ⟨S50000, .f32⟩
  | 19 => ⟨S350000, .f32⟩
  | 20 => ⟨S_, .f32⟩
  | 21 => ⟨S50000, .f32⟩
  | 22 => ⟨S350000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S350000, .i32⟩
  | 34 => ⟨S350000, .i1⟩
  | 35 => ⟨S_, .i32⟩
  | 36 => ⟨S350000, .i32⟩
  | 37 => ⟨S350000, .i32⟩
  | 38 => ⟨S350000, .i32⟩
  | 39 => ⟨S350000x1, .i32⟩
  | 40 => ⟨S350000, .f32⟩
  | 41 => ⟨S350000, .f32⟩
  | 42 => ⟨S_, .i32⟩
  | 43 => ⟨S350000, .i32⟩
  | 44 => ⟨S350000, .i1⟩
  | 45 => ⟨S_, .i32⟩
  | 46 => ⟨S350000, .i32⟩
  | 47 => ⟨S350000, .i32⟩
  | 48 => ⟨S350000, .i32⟩
  | 49 => ⟨S350000x1, .i32⟩
  | 50 => ⟨S350000, .f32⟩
  | 51 => ⟨S350000, .f32⟩
  | 52 => ⟨S350000x1, .f32⟩
  | 53 => ⟨S_, .i32⟩
  | 54 => ⟨S350000, .i32⟩
  | 55 => ⟨S350000, .i1⟩
  | 56 => ⟨S_, .i32⟩
  | 57 => ⟨S350000, .i32⟩
  | 58 => ⟨S350000, .i32⟩
  | 59 => ⟨S350000, .i32⟩
  | 60 => ⟨S350000x1, .i32⟩
  | 61 => ⟨S350000x512, .f32⟩
  | 62 => ⟨S350000x512, .f32⟩
  | 63 => ⟨S350000x512, .f32⟩
  | 64 => ⟨S_, .f32⟩
  | 65 => ⟨S50000x512, .f32⟩
  | 66 => ⟨S350000x1, .i32⟩
  | 67 => ⟨S50000x512, .f32⟩
  | 68 => ⟨S1x512, .f32⟩
  | 69 => ⟨S50000x512, .f32⟩
  | 70 => ⟨S50000x512, .f32⟩
  | 71 => ⟨S_, .f32⟩
  | 72 => ⟨S50000x512, .f32⟩
  | 73 => ⟨S50000x512, .i1⟩
  | 74 => ⟨S50000x512, .f32⟩
  | 75 => ⟨S50000x512, .f32⟩
  | 76 => ⟨S50000x512, .f32⟩
  | 77 => ⟨S512x512, .f32⟩
  | 78 => ⟨S50000x512, .f32⟩
  | 79 => ⟨S50000, .i32⟩
  | 80 => ⟨S350000, .i32⟩
  | 81 => ⟨S350000, .i32⟩
  | 82 => ⟨S_, .f32⟩
  | 83 => ⟨S50000, .f32⟩
  | 84 => ⟨S350000, .f32⟩
  | 85 => ⟨S_, .f32⟩
  | 86 => ⟨S50000, .f32⟩
  | 87 => ⟨S350000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S350000, .i32⟩
  | 99 => ⟨S350000, .i1⟩
  | 100 => ⟨S_, .i32⟩
  | 101 => ⟨S350000, .i32⟩
  | 102 => ⟨S350000, .i32⟩
  | 103 => ⟨S350000, .i32⟩
  | 104 => ⟨S350000x1, .i32⟩
  | 105 => ⟨S350000, .f32⟩
  | 106 => ⟨S350000, .f32⟩
  | 107 => ⟨S_, .i32⟩
  | 108 => ⟨S350000, .i32⟩
  | 109 => ⟨S350000, .i1⟩
  | 110 => ⟨S_, .i32⟩
  | 111 => ⟨S350000, .i32⟩
  | 112 => ⟨S350000, .i32⟩
  | 113 => ⟨S350000, .i32⟩
  | 114 => ⟨S350000x1, .i32⟩
  | 115 => ⟨S350000, .f32⟩
  | 116 => ⟨S350000, .f32⟩
  | 117 => ⟨S350000x1, .f32⟩
  | 118 => ⟨S_, .i32⟩
  | 119 => ⟨S350000, .i32⟩
  | 120 => ⟨S350000, .i1⟩
  | 121 => ⟨S_, .i32⟩
  | 122 => ⟨S350000, .i32⟩
  | 123 => ⟨S350000, .i32⟩
  | 124 => ⟨S350000, .i32⟩
  | 125 => ⟨S350000x1, .i32⟩
  | 126 => ⟨S350000x512, .f32⟩
  | 127 => ⟨S350000x512, .f32⟩
  | _ => ⟨S50000x256, .f32⟩

abbrev hbmTy0_1 (i : Nat) : BufTy := match i % 128 with
  | 0 => ⟨S350000x512, .f32⟩
  | 1 => ⟨S_, .f32⟩
  | 2 => ⟨S50000x512, .f32⟩
  | 3 => ⟨S350000x1, .i32⟩
  | 4 => ⟨S50000x512, .f32⟩
  | 5 => ⟨S1x512, .f32⟩
  | 6 => ⟨S50000x512, .f32⟩
  | 7 => ⟨S50000x512, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_18 : Ref sig .tc := ⟨.hbm, 118, rfl⟩
abbrev main_v86 : Ref sig .tc := ⟨.hbm, 119, rfl⟩
abbrev main_v87 : Ref sig .tc := ⟨.hbm, 120, rfl⟩
abbrev main_c_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  transposes_S512x256_S256x512_1_0 : S512x256.Transposes [1, 0] S256x512
  concatenates_S300000_S50000_S350000_d0 : Shape.Concatenates [S300000, S50000] S350000 0
  bcast_S_S50000 : S_.BroadcastsInDim S50000 (![] : Fin 0 → Fin S50000.rank)
  bcast_S350000_S350000x1_0 : S350000.BroadcastsInDim S350000x1 (![0] : Fin 1 → Fin S350000x1.rank)
  bcast_S_S350000 : S_.BroadcastsInDim S350000 (![] : Fin 0 → Fin S350000.rank)
  bcast_S350000x1_S350000x512_0_1 : S350000x1.BroadcastsInDim S350000x512 (![0, 1] : Fin 2 → Fin S350000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  transposes_S512x512_S512x512_1_0 : S512x512.Transposes [1, 0] S512x512
  dot_S50000x256_S256x512_S50000x512_1_0_0_1_n_n_wf : DotDims.WF S50000x256 S256x512 S50000x512 [1] [0] [0] [1] [] []
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  gather_S50000x512_S350000x1_S350000x512_1_0_n_n_0_1_1512_wf : GatherDims.WF S50000x512 S350000x1 S350000x512 [1] [0] [] [0] [] 1 ![1, 512]
  scatter_S50000x512_S350000x1_S350000x512_1_0_0_1_wf : ScatterDims.WF S50000x512 S350000x1 S350000x512 [1] [0] [0] 1
  dot_S50000x512_S512x512_S50000x512_1_0_0_1_n_n_wf : DotDims.WF S50000x512 S512x512 S50000x512 [1] [0] [0] [1] [] []

variable [Facts₀]

def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def gather_S50000x512_S350000x1_S350000x512_1_0_n_n_0_1_1512 : GatherDims S50000x512 S350000x1 S350000x512 where
  offsetDims := [1]
  collapsedSliceDims := [0]
  operandBatchingDims := []
  startIndicesBatchingDims := []
  startIndexMap := [0]
  indexVectorDim := 1
  sliceSizes := ![1, 512]
  wf := gather_S50000x512_S350000x1_S350000x512_1_0_n_n_0_1_1512_wf
def scatter_S50000x512_S350000x1_S350000x512_1_0_0_1 : ScatterDims S50000x512 S350000x1 S350000x512 where
  updateWindowDims := [1]
  insertedWindowDims := [0]
  scatterDimsToOperandDims := [0]
  indexVectorDim := 1
  wf := scatter_S50000x512_S350000x1_S350000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KernelRun.lean ====
/-
  The whole run of the program with its result named. The program is eleven segments: five host operations, the
  first linear layer's pallas_call, 64 host operations (the first normalized aggregation, the bias and the PReLU), the
  second layer's pallas_call, and 57 host operations (the second aggregation and bias). Every weakly fair execution
  runs through them in order, and at the end every unscoped buffer of a core holds the fold of the segments over the
  launch memory: a stretch of host operations applies its operations, a region replaces its three arrays by what its
  write-backs leave. The result buffer is read off that fold; the eight arguments are read back to the launch memory.
-/
import proofs.«175209_j12481174962620_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the fold of the eleven segments
    over the launch memory, and the arguments end as launched. -/
theorem run_result : θ_run defs (onTc (τ := τ) (main (F := F))) ⟨m, fun _ => 0, ρ⟩ (fun r => ∀ c : Dev nD,
      r.2.mem ((c.tc : Thread nD τ).loc main_v100) = W11 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v100 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Whole

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.MatmulBlocks.lean ====
/-
  The two linear layers. Each pallas_call walks the 50000 rows of its row operand in 25 blocks of 2000 rows; at a
  grid point it loads the block and the whole transposed weight, rounds both to bf16 (the identity on the extended
  reals), multiplies them on the matrix unit into a zero accumulator and stores the 2000 × 512 product block. Entry
  (p, q) of that block is the sum over the contracted positions j of x (p, j) · w (j, q); the 25 blocks tile the
  result array, so after the region the array is the whole product x · w — the host's dot product of the two arrays
  the region found, whatever they hold.
-/
import proofs.«175209_j12481174962620_1_alg».proof.Proof.Gen.KernelIdeal.Frame
import proofs.«175209_j12481174962620_1_alg».proof.Proof.LibMatmul
import Idealize.ShloMosaic.Lib.Pipeline.Value
import Idealize.ShloMosaic.Lib.ValueIdx
import Idealize.ShloMosaic.PureOps.Ideal.Laws

noncomputable section

namespace Cert.KernelIdeal.Linear

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

theorem origin2 : (![0, 0] : Fin 2 → Nat) = fun _ => 0 := funext fun a => by fin_cases a <;> rfl

/-! ## Region 0: rows of x times the transposed weight -/

section Region0

variable (V : (c : Dev nD) → (b : Ref sig .tc) → Buf (Elt Ideal) ((c : Thread nD τ).loc b))

/-- Entry (p, q) of the block product is the sum over the 256 contracted positions j of x (p, j) · w (j, q):
    rounding the operands to bf16 is the identity on the extended reals, and the accumulator starts at zero. -/
theorem product0_apply (x0 : Vec Ideal S2000x256 .f32) (x1 : Vec Ideal S256x512 .f32) (p : Fin 2000) (q : Fin 512) :
    k0_pay1 (F := Ideal) x0 x1 (ix2 p q) = ∑ j : Fin 256, x0 (ix2 p j) * x1 (ix2 j q) := by
  unfold k0_pay1
  rw [shapeCast_self]
  exact matmul_zero_ix2 dot_S2000x256_S256x512_S2000x512_1_0_0_1_n_n rfl rfl rfl rfl rfl rfl none _ _ p q

/-- Where the three windows sit at grid point t: the row operand and the result move down by one block of 2000 rows
    per point, the weight stays whole (decided over the 25 points). -/
theorem places0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- Every one of the 25 row blocks is some grid point's. -/
theorem places0_onto : ∀ b : Fin 25, ∃ t : Fin cfg0.N, win0_2.index t = ![b.val, 0] :=
  (by decide +kernel : ∀ b : Fin 25, ∃ t : Fin grid0.N, win0_2.index t = ![b.val, 0])

/-- What grid point t writes back is its block of rows of the whole product: rows 2000·t … 2000·t + 1999 of the
    row operand against the whole weight. -/
theorem written0 (c : Dev nD) (d : DotDims S50000x256 S256x512 S50000x512)
    (hl : d.lhsContracting = [1]) (hr : d.rhsContracting = [0]) (hln : d.lhsNonContracting = [0])
    (hrn : d.rhsNonContracting = [1]) (hlb : d.lhsBatch = []) (hrb : d.rhsBatch = []) (t : Fin cfg0.N) :
    (dat0 V c).flushed 2 t
      = ((cfg0.win 2).blk t).view.read (Elt Ideal) ((Host.dotGeneral (F := Ideal) (φ₁ := .f32) (φ₂ := .f32) d none (V c main_arg0 : S50000x256.Idx → EReal) (V c main_v4 : S256x512.Idx → EReal) : S50000x512.Idx → EReal)) := by
  show (cfg0.win 2).cut (grid0.coords t) ((dat0 V c).after 2 t) = _
  rw [after0_2]
  unfold out0_2
  rw [View.canon_unit_zero origin2]
  simp only [View.ld_unit_zero (S := S2000x256) origin2, View.ld_unit_zero (S := S256x512) origin2]
  obtain ⟨e00, e01, e10, e11, e20, e21, ht⟩ := places0 t
  funext y
  obtain ⟨p, q, rfl⟩ : ∃ (p : Fin 2000) (q : Fin 512), y = ix2 p q := ⟨y 0, y 1, eq_ix2 y⟩
  have hp : p.val < 2000 := p.isLt
  let r : Fin 50000 := ⟨t.val * 2000 + p.val, by omega⟩
  have e2 : ((cfg0.win 2).blk t).view.emb (ix2 p q) = (ix2 r q : S50000x512.Idx) := by
    funext a; apply Fin.ext
    match a with
    | ⟨0, _⟩ => show win0_2.index t (0 : Fin 2) * 2000 + 1 * p.val = t.val * 2000 + p.val; omega
    | ⟨1, _⟩ => show win0_2.index t (1 : Fin 2) * 512 + 1 * q.val = q.val; omega
  have e0 : ∀ j : Fin 256, ((cfg0.win 0).blk t).view.emb (ix2 p j) = (ix2 r j : S50000x256.Idx) := fun j => by
    funext a; apply Fin.ext
    match a with
    | ⟨0, _⟩ => show win0_0.index t (0 : Fin 2) * 2000 + 1 * p.val = t.val * 2000 + p.val; omega
    | ⟨1, _⟩ => show win0_0.index t (1 : Fin 2) * 256 + 1 * j.val = j.val; omega
  have e1 : ∀ j : Fin 256, ((cfg0.win 1).blk t).view.emb (ix2 j q) = (ix2 j q : S256x512.Idx) := fun j => by
    funext a; apply Fin.ext
    match a with
    | ⟨0, _⟩ => show win0_1.index t (0 : Fin 2) * 256 + 1 * j.val = j.val; omega
    | ⟨1, _⟩ => show win0_1.index t (1 : Fin 2) * 512 + 1 * q.val = q.val; omega
  show k0_pay1 (iblk0 V c 0 t) (iblk0 V c 1 t) (ix2 p q)
    = (Host.dotGeneral (F := Ideal) (φ₁ := .f32) (φ₂ := .f32) d none (V c main_arg0 : S50000x256.Idx → EReal) (V c main_v4 : S256x512.Idx → EReal) : S50000x512.Idx → EReal) (((cfg0.win 2).blk t).view.emb (ix2 p q))
  rw [e2]
  refine (product0_apply (iblk0 V c 0 t) (iblk0 V c 1 t) p q).trans ?_
  refine Eq.trans ?_ (dotGeneral_ix2 d hl hr hln hrn hlb hrb none .single (V c main_arg0) (V c main_v4) r q).symm
  refine Finset.sum_congr rfl fun j _ => ?_
  have h0 : (iblk0 V c 0 t (ix2 p j) : EReal) = (V c main_arg0 : S50000x256.Idx → EReal) (ix2 r j) := by
    show (V c main_arg0 : S50000x256.Idx → EReal) (((cfg0.win 0).blk t).view.emb (ix2 p j)) = _
    rw [e0 j]
  have h1 : (iblk0 V c 1 t (ix2 j q) : EReal) = (V c main_v4 : S256x512.Idx → EReal) (ix2 j q) := by
    show (V c main_v4 : S256x512.Idx → EReal) (((cfg0.win 1).blk t).view.emb (ix2 j q)) = _
    rw [e1 j]
  exact congrArg₂ (fun (a b : EReal) => a * b) h0 h1

/-- An index of the result array is in grid point t's block iff each coordinate is in the block's range on its axis. -/
theorem mem_block0 (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v5).slice (win0_2.rect t)).set ↔ _
  rw [View.set_slice_whole, Rect.mem_set_unit]
  exact Iff.rfl

/-- The 25 blocks of 2000 rows cover the 50000 rows: row r lies in the block of point r / 2000. -/
theorem covered0 (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  obtain ⟨t, ht⟩ := places0_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- After the region the result array is the whole matrix product of the row operand and the weight as the region
    found them, whatever those contents are: the host's dot product with the same dimension numbers. -/
theorem whole0 (c : Dev nD) (d : DotDims S50000x256 S256x512 S50000x512)
    (hl : d.lhsContracting = [1]) (hr : d.rhsContracting = [0]) (hln : d.lhsNonContracting = [0])
    (hrn : d.rhsNonContracting = [1]) (hlb : d.lhsBatch = []) (hrb : d.rhsBatch = []) :
    (dat0 V c).arrAt 2 cfg0.N = (Host.dotGeneral (F := Ideal) (φ₁ := .f32) (φ₂ := .f32) d none (V c main_arg0 : S50000x256.Idx → EReal) (V c main_v4 : S256x512.Idx → EReal) : S50000x512.Idx → EReal) :=
  (dat0 V c).arrAt_eq_of_cover 2 ((Host.dotGeneral (F := Ideal) (φ₁ := .f32) (φ₂ := .f32) d none (V c main_arg0 : S50000x256.Idx → EReal) (V c main_v4 : S256x512.Idx → EReal) : S50000x512.Idx → EReal))
    (fun t _ => written0 V c d hl hr hln hrn hlb hrb t) covered0

end Region0

/-! ## Region 1: rows of the hidden layer times the transposed weight -/

section Region1

variable (V : (c : Dev nD) → (b : Ref sig .tc) → Buf (Elt Ideal) ((c : Thread nD τ).loc b))

/-- Entry (p, q) of the block product is the sum over the 512 contracted positions j of x (p, j) · w (j, q):
    rounding the operands to bf16 is the identity on the extended reals, and the accumulator starts at zero. -/
theorem product1_apply (x0 : Vec Ideal S2000x512 .f32) (x1 : Vec Ideal S512x512 .f32) (p : Fin 2000) (q : Fin 512) :
    k1_pay1 (F := Ideal) x0 x1 (ix2 p q) = ∑ j : Fin 512, x0 (ix2 p j) * x1 (ix2 j q) := by
  unfold k1_pay1
  rw [shapeCast_self, shapeCast_self]
  exact matmul_zero_ix2 dot_S2000x512_S512x512_S2000x512_1_0_0_1_n_n rfl rfl rfl rfl rfl rfl none _ _ p q

/-- Where the three windows sit at grid point t: the row operand and the result move down by one block of 2000 rows
    per point, the weight stays whole (decided over the 25 points). -/
theorem places1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 25 :=
  (by decide +kernel : ∀ t : Fin grid1.N, _)

/-- Every one of the 25 row blocks is some grid point's. -/
theorem places1_onto : ∀ b : Fin 25, ∃ t : Fin cfg1.N, win1_2.index t = ![b.val, 0] :=
  (by decide +kernel : ∀ b : Fin 25, ∃ t : Fin grid1.N, win1_2.index t = ![b.val, 0])

/-- What grid point t writes back is its block of rows of the whole product: rows 2000·t … 2000·t + 1999 of the
    row operand against the whole weight. -/
theorem written1 (c : Dev nD) (d : DotDims S50000x512 S512x512 S50000x512)
    (hl : d.lhsContracting = [1]) (hr : d.rhsContracting = [0]) (hln : d.lhsNonContracting = [0])
    (hrn : d.rhsNonContracting = [1]) (hlb : d.lhsBatch = []) (hrb : d.rhsBatch = []) (t : Fin cfg1.N) :
    (dat1 V c).flushed 2 t
      = ((cfg1.win 2).blk t).view.read (Elt Ideal) ((Host.dotGeneral (F := Ideal) (φ₁ := .f32) (φ₂ := .f32) d none (V c main_v54 : S50000x512.Idx → EReal) (V c main_v55 : S512x512.Idx → EReal) : S50000x512.Idx → EReal)) := by
  show (cfg1.win 2).cut (grid1.coords t) ((dat1 V c).after 2 t) = _
  rw [after1_2]
  unfold out1_2
  rw [View.canon_unit_zero origin2]
  simp only [View.ld_unit_zero (S := S2000x512) origin2, View.ld_unit_zero (S := S512x512) origin2]
  obtain ⟨e00, e01, e10, e11, e20, e21, ht⟩ := places1 t
  funext y
  obtain ⟨p, q, rfl⟩ : ∃ (p : Fin 2000) (q : Fin 512), y = ix2 p q := ⟨y 0, y 1, eq_ix2 y⟩
  have hp : p.val < 2000 := p.isLt
  let r : Fin 50000 := ⟨t.val * 2000 + p.val, by omega⟩
  have e2 : ((cfg1.win 2).blk t).view.emb (ix2 p q) = (ix2 r q : S50000x512.Idx) := by
    funext a; apply Fin.ext
    match a with
    | ⟨0, _⟩ => show win1_2.index t (0 : Fin 2) * 2000 + 1 * p.val = t.val * 2000 + p.val; omega
    | ⟨1, _⟩ => show win1_2.index t (1 : Fin 2) * 512 + 1 * q.val = q.val; omega
  have e0 : ∀ j : Fin 512, ((cfg1.win 0).blk t).view.emb (ix2 p j) = (ix2 r j : S50000x512.Idx) := fun j => by
    funext a; apply Fin.ext
    match a with
    | ⟨0, _⟩ => show win1_0.index t (0 : Fin 2) * 2000 + 1 * p.val = t.val * 2000 + p.val; omega
    | ⟨1, _⟩ => show win1_0.index t (1 : Fin 2) * 512 + 1 * j.val = j.val; omega
  have e1 : ∀ j : Fin 512, ((cfg1.win 1).blk t).view.emb (ix2 j q) = (ix2 j q : S512x512.Idx) := fun j => by
    funext a; apply Fin.ext
    match a with
    | ⟨0, _⟩ => show win1_1.index t (0 : Fin 2) * 512 + 1 * j.val = j.val; omega
    | ⟨1, _⟩ => show win1_1.index t (1 : Fin 2) * 512 + 1 * q.val = q.val; omega
  show k1_pay1 (iblk1 V c 0 t) (iblk1 V c 1 t) (ix2 p q)
    = (Host.dotGeneral (F := Ideal) (φ₁ := .f32) (φ₂ := .f32) d none (V c main_v54 : S50000x512.Idx → EReal) (V c main_v55 : S512x512.Idx → EReal) : S50000x512.Idx → EReal) (((cfg1.win 2).blk t).view.emb (ix2 p q))
  rw [e2]
  refine (product1_apply (iblk1 V c 0 t) (iblk1 V c 1 t) p q).trans ?_
  refine Eq.trans ?_ (dotGeneral_ix2 d hl hr hln hrn hlb hrb none .single (V c main_v54) (V c main_v55) r q).symm
  refine Finset.sum_congr rfl fun j _ => ?_
  have h0 : (iblk1 V c 0 t (ix2 p j) : EReal) = (V c main_v54 : S50000x512.Idx → EReal) (ix2 r j) := by
    show (V c main_v54 : S50000x512.Idx → EReal) (((cfg1.win 0).blk t).view.emb (ix2 p j)) = _
    rw [e0 j]
  have h1 : (iblk1 V c 1 t (ix2 j q) : EReal) = (V c main_v55 : S512x512.Idx → EReal) (ix2 j q) := by
    show (V c main_v55 : S512x512.Idx → EReal) (((cfg1.win 1).blk t).view.emb (ix2 j q)) = _
    rw [e1 j]
  exact congrArg₂ (fun (a b : EReal) => a * b) h0 h1

/-- An index of the result array is in grid point t's block iff each coordinate is in the block's range on its axis. -/
theorem mem_block1 (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v56).slice (win1_2.rect t)).set ↔ _
  rw [View.set_slice_whole, Rect.mem_set_unit]
  exact Iff.rfl

/-- The 25 blocks of 2000 rows cover the 50000 rows: row r lies in the block of point r / 2000. -/
theorem covered1 (i : S50000x512.Idx) :
    ∃ t : Fin cfg1.N, (cfg1.win 2).flush t = true ∧ i ∈ ((cfg1.win 2).blk t).view.set := by
  have hi0 : (i 0).val < 50000 := (i 0).isLt
  have hi1 : (i 1).val < 512 := (i 1).isLt
  obtain ⟨t, ht⟩ := places1_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- After the region the result array is the whole matrix product of the row operand and the weight as the region
    found them, whatever those contents are: the host's dot product with the same dimension numbers. -/
theorem whole1 (c : Dev nD) (d : DotDims S50000x512 S512x512 S50000x512)
    (hl : d.lhsContracting = [1]) (hr : d.rhsContracting = [0]) (hln : d.lhsNonContracting = [0])
    (hrn : d.rhsNonContracting = [1]) (hlb : d.lhsBatch = []) (hrb : d.rhsBatch = []) :
    (dat1 V c).arrAt 2 cfg1.N = (Host.dotGeneral (F := Ideal) (φ₁ := .f32) (φ₂ := .f32) d none (V c main_v54 : S50000x512.Idx → EReal) (V c main_v55 : S512x512.Idx → EReal) : S50000x512.Idx → EReal) :=
  (dat1 V c).arrAt_eq_of_cover 2 ((Host.dotGeneral (F := Ideal) (φ₁ := .f32) (φ₂ := .f32) d none (V c main_v54 : S50000x512.Idx → EReal) (V c main_v55 : S512x512.Idx → EReal) : S50000x512.Idx → EReal))
    (fun t _ => written1 V c d hl hr hln hrn hlb hrb t) covered1

end Region1

end Cert.KernelIdeal.Linear

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.Bridge.lean ====
/-
  The kernel's program and the reference compute one function of the arguments. Both are the same 126 host operations
  in the same order around two matrix products: the reference takes each product by the host's dot product, the kernel
  by a pallas_call whose result array is that same dot product of the two arrays it finds (the 25 row blocks tile the
  array, and a block's entry is the same sum over the contracted axis). So the kernel's result buffer, read back
  through its three stretches of host operations and its two regions down to the launch memory, is the reference's
  composed term of the arguments.
-/
import proofs.«175209_j12481174962620_1_alg».proof.Proof.Gen.KernelIdeal.Frame
import proofs.«175209_j12481174962620_1_alg».proof.Proof.Gen.ReferenceIdeal.Run
import proofs.«175209_j12481174962620_1_alg».proof.Proof.MatmulBlocks
import proofs.«175209_j12481174962620_1_alg».proof.Proof.LibReadThrough
import Idealize.ShloMosaic.PureOps.Ideal

noncomputable section

namespace Cert.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The reference's two dot products' dimension numbers, read at the kernel's shapes (the same literal shapes). -/
abbrev dims1 : DotDims S50000x256 S256x512 S50000x512 := Cert.ReferenceIdeal.dot_S50000x256_S256x512_S50000x512_1_0_0_1_n_n
abbrev dims2 : DotDims S50000x512 S512x512 S50000x512 := Cert.ReferenceIdeal.dot_S50000x512_S512x512_S50000x512_1_0_0_1_n_n

/-! ## What each region leaves, and the buffers it does not touch -/

/-- After the first region the buffer of x · W1ᵀ holds the host's dot product of x and the transposed weight as the
    region found them. -/
theorem first_product (c : Dev nD) :
    (W2 m ρ c (Proc.devRef .tc main_v5) : S50000x512.Idx → EReal)
      = Host.dotGeneral (F := Ideal) (φ₁ := .f32) (φ₂ := .f32) dims1 none
          (W1 m ρ c (Proc.devRef .tc main_arg0) : S50000x256.Idx → EReal) (W1 m ρ c (Proc.devRef .tc main_v4) : S256x512.Idx → EReal) :=
  (W2_arr m ρ c 2).trans (Cert.KernelIdeal.Linear.whole0 (V1 m ρ) c dims1 rfl rfl rfl rfl rfl rfl)

/-- After the second region the buffer of h · W2ᵀ holds the host's dot product of the hidden layer and the transposed
    weight as the region found them. -/
theorem second_product (c : Dev nD) :
    (W8 m ρ c (Proc.devRef .tc main_v56) : S50000x512.Idx → EReal)
      = Host.dotGeneral (F := Ideal) (φ₁ := .f32) (φ₂ := .f32) dims2 none
          (W7 m ρ c (Proc.devRef .tc main_v54) : S50000x512.Idx → EReal) (W7 m ρ c (Proc.devRef .tc main_v55) : S512x512.Idx → EReal) :=
  (W8_arr m ρ c 2).trans (Cert.KernelIdeal.Linear.whole1 (V7 m ρ) c dims2 rfl rfl rfl rfl rfl rfl)

/-- The second region leaves every buffer that is not one of its three arrays as it found it. -/
theorem past2_v1 (c : Dev nD) : W8 m ρ c (Proc.devRef .tc main_v1) = W7 m ρ c (Proc.devRef .tc main_v1) := W8_of_ne m ρ c main_v1 (by decide)
theorem past2_v3 (c : Dev nD) : W8 m ρ c (Proc.devRef .tc main_v3) = W7 m ρ c (Proc.devRef .tc main_v3) := W8_of_ne m ρ c main_v3 (by decide)
theorem past2_arg2 (c : Dev nD) : W8 m ρ c (Proc.devRef .tc main_arg2) = W7 m ρ c (Proc.devRef .tc main_arg2) := W8_of_ne m ρ c main_arg2 (by decide)
theorem past2_arg6 (c : Dev nD) : W8 m ρ c (Proc.devRef .tc main_arg6) = W7 m ρ c (Proc.devRef .tc main_arg6) := W8_of_ne m ρ c main_arg6 (by decide)

/-- So does the first. -/
theorem past1_v1 (c : Dev nD) : W2 m ρ c (Proc.devRef .tc main_v1) = W1 m ρ c (Proc.devRef .tc main_v1) := W2_of_ne m ρ c main_v1 (by decide)
theorem past1_v3 (c : Dev nD) : W2 m ρ c (Proc.devRef .tc main_v3) = W1 m ρ c (Proc.devRef .tc main_v3) := W2_of_ne m ρ c main_v3 (by decide)
theorem past1_arg2 (c : Dev nD) : W2 m ρ c (Proc.devRef .tc main_arg2) = W1 m ρ c (Proc.devRef .tc main_arg2) := W2_of_ne m ρ c main_arg2 (by decide)
theorem past1_arg4 (c : Dev nD) : W2 m ρ c (Proc.devRef .tc main_arg4) = W1 m ρ c (Proc.devRef .tc main_arg4) := W2_of_ne m ρ c main_arg4 (by decide)
theorem past1_arg5 (c : Dev nD) : W2 m ρ c (Proc.devRef .tc main_arg5) = W1 m ρ c (Proc.devRef .tc main_arg5) := W2_of_ne m ρ c main_arg5 (by decide)
theorem past1_arg6 (c : Dev nD) : W2 m ρ c (Proc.devRef .tc main_arg6) = W1 m ρ c (Proc.devRef .tc main_arg6) := W2_of_ne m ρ c main_arg6 (by decide)
theorem past1_arg7 (c : Dev nD) : W2 m ρ c (Proc.devRef .tc main_arg7) = W1 m ρ c (Proc.devRef .tc main_arg7) := W2_of_ne m ρ c main_arg7 (by decide)

/-- The launch memory at an argument's buffer. -/
theorem launch_arg0 (c : Dev nD) : W0 m ρ c (Proc.devRef .tc main_arg0) = m ((c.tc : Thread nD τ).loc main_arg0) := rfl
theorem launch_arg1 (c : Dev nD) : W0 m ρ c (Proc.devRef .tc main_arg1) = m ((c.tc : Thread nD τ).loc main_arg1) := rfl
theorem launch_arg2 (c : Dev nD) : W0 m ρ c (Proc.devRef .tc main_arg2) = m ((c.tc : Thread nD τ).loc main_arg2) := rfl
theorem launch_arg3 (c : Dev nD) : W0 m ρ c (Proc.devRef .tc main_arg3) = m ((c.tc : Thread nD τ).loc main_arg3) := rfl
theorem launch_arg4 (c : Dev nD) : W0 m ρ c (Proc.devRef .tc main_arg4) = m ((c.tc : Thread nD τ).loc main_arg4) := rfl
theorem launch_arg5 (c : Dev nD) : W0 m ρ c (Proc.devRef .tc main_arg5) = m ((c.tc : Thread nD τ).loc main_arg5) := rfl
theorem launch_arg6 (c : Dev nD) : W0 m ρ c (Proc.devRef .tc main_arg6) = m ((c.tc : Thread nD τ).loc main_arg6) := rfl
theorem launch_arg7 (c : Dev nD) : W0 m ρ c (Proc.devRef .tc main_arg7) = m ((c.tc : Thread nD τ).loc main_arg7) := rfl

/-! ## The result buffer, read back to the launch memory -/

set_option maxRecDepth 16384 in
set_option maxHeartbeats 51200000 in
/-- The kernel's result buffer at the end of the run is the reference's fold of its 128 host operations at its result
    buffer, for a reference memory that agrees with the kernel's on the eight arguments: both sides are read back to the
    arguments by the same one-pass reading, so they are the same composition of the same operations, the kernel's two
    regions standing where the reference has its two dot products. -/
theorem result_eq (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    (W11 m ρ c (Proc.devRef .tc main_v100) : S50000x512.Idx → EReal)
      = StableHlo.after (Cert.ReferenceIdeal.Value.ops (F := Ideal)) (StableHlo.launchContents m' c) (Proc.devRef .tc Cert.ReferenceIdeal.main_v100) := by
  -- the last stretch: the second aggregation and its bias, over what the second region leaves
  show StableHlo.after hostOps2_2 (StableHlo.after hostOps2_1 (StableHlo.after hostOps2 (W8 m ρ c))) (Proc.devRef .tc main_v100) = _
  after_results_through
  rw [second_product m ρ c, past2_v1 m ρ c, past2_v3 m ρ c, past2_arg2 m ρ c, past2_arg6 m ρ c]
  -- the middle stretch: the first aggregation, its bias and the PReLU, over what the first region leaves
  after_results_through
  rw [first_product m ρ c, past1_v1 m ρ c, past1_v3 m ρ c, past1_arg2 m ρ c, past1_arg4 m ρ c, past1_arg5 m ρ c,
    past1_arg6 m ρ c, past1_arg7 m ρ c]
  -- the first stretch: the two rows of the edge list and the transposed first weight, over the launch memory
  after_results_through
  rw [launch_arg0 m ρ c, launch_arg1 m ρ c, launch_arg2 m ρ c, launch_arg3 m ρ c, launch_arg4 m ρ c, launch_arg5 m ρ c,
    launch_arg6 m ρ c, launch_arg7 m ρ c]
  -- the reference's launch memory at the arguments, which agree
  have g0 : StableHlo.launchContents m' c (Proc.devRef .tc Cert.ReferenceIdeal.main_arg0) = m ((c.tc : Thread nD τ).loc main_arg0) := h0
  have g1 : StableHlo.launchContents m' c (Proc.devRef .tc Cert.ReferenceIdeal.main_arg1) = m ((c.tc : Thread nD τ).loc main_arg1) := h1
  have g2 : StableHlo.launchContents m' c (Proc.devRef .tc Cert.ReferenceIdeal.main_arg2) = m ((c.tc : Thread nD τ).loc main_arg2) := h2
  have g3 : StableHlo.launchContents m' c (Proc.devRef .tc Cert.ReferenceIdeal.main_arg3) = m ((c.tc : Thread nD τ).loc main_arg3) := h3
  have g4 : StableHlo.launchContents m' c (Proc.devRef .tc Cert.ReferenceIdeal.main_arg4) = m ((c.tc : Thread nD τ).loc main_arg4) := h4
  have g5 : StableHlo.launchContents m' c (Proc.devRef .tc Cert.ReferenceIdeal.main_arg5) = m ((c.tc : Thread nD τ).loc main_arg5) := h5
  have g6 : StableHlo.launchContents m' c (Proc.devRef .tc Cert.ReferenceIdeal.main_arg6) = m ((c.tc : Thread nD τ).loc main_arg6) := h6
  have g7 : StableHlo.launchContents m' c (Proc.devRef .tc Cert.ReferenceIdeal.main_arg7) = m ((c.tc : Thread nD τ).loc main_arg7) := h7
  rw [g0, g1, g2, g3, g4, g5, g6, g7]
  rfl

end Cert.Bridge

end
-- ==== Proof.ReferenceFold.lean ====
/-
  The reference's fold of its 128 host operations over a launch memory, read at its result buffer, is the composed
  term of the arguments that its generated run ends at (for any float instance: the operations stay uninterpreted).
-/
import proofs.«175209_j12481174962620_1_alg».proof.Proof.Gen.ReferenceIdeal.Run

noncomputable section

namespace Cert.ReferenceFold

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxRecDepth 8192 in
set_option maxHeartbeats 51200000 in
theorem result_fold (c : Dev nD) (m : (ℓ : Loc nD τ sig) → Buf (Elt F) ℓ) :
    after (ops (F := F)) (launchContents m c) (Proc.devRef .tc main_v100) = res_main_v100 m c := by
  after_results_simp <;> rfl <;> (unfold res_main_v100; rfl)

end Cert.ReferenceFold

end
-- ==== Proof.lean ====
/-
  A two-layer graph convolution: each layer is a linear map x ↦ x · Wᵀ, a degree-normalized aggregation over the edges
  with self-loops (the weighted in-degree by a scatter-add, deg^(-1/2) where the degree is positive, each edge's row
  scaled by the two endpoint factors and its weight, scatter-added per target), and a bias; a PReLU sits between the
  layers. The kernel's program takes each linear map on the matrix unit in 25 blocks of 2000 rows, its operands rounded
  to bf16; the reference takes it by the host's dot product. Everything else is the same host operations in the same
  order in both programs.

  On the extended reals the rounding is the identity and a block's product into a zero accumulator has, at (p, q), the
  sum over the contracted axis of x (p, j) · w (j, q) — the host's dot product read at the same row. The blocks tile the
  result array, so each pallas_call leaves exactly the host's dot product of the arrays it finds, and the two programs
  are one composition of the same functions of the arguments. No finiteness of the inputs is used.

  The frames of the two kernel programs are the generated ones; the reference's frame is its generated run with the
  result dropped; the idealization rewrote nothing, so there is nothing to preserve.
-/
import proofs.«175209_j12481174962620_1_alg».proof.Defs
import proofs.«175209_j12481174962620_1_alg».proof.Proof.Gen.Kernel
import proofs.«175209_j12481174962620_1_alg».proof.Proof.Gen.Kernel.Skeleton
import proofs.«175209_j12481174962620_1_alg».proof.Proof.Gen.Kernel.Launch
import proofs.«175209_j12481174962620_1_alg».proof.Proof.Gen.Kernel.Points
import proofs.«175209_j12481174962620_1_alg».proof.Proof.Gen.Kernel.Frame
import proofs.«175209_j12481174962620_1_alg».proof.Proof.Gen.KernelIdeal
import proofs.«175209_j12481174962620_1_alg».proof.Proof.Gen.KernelIdeal.Skeleton
import proofs.«175209_j12481174962620_1_alg».proof.Proof.Gen.KernelIdeal.Launch
import proofs.«175209_j12481174962620_1_alg».proof.Proof.Gen.KernelIdeal.Points
import proofs.«175209_j12481174962620_1_alg».proof.Proof.Gen.KernelIdeal.Frame
import proofs.«175209_j12481174962620_1_alg».proof.Proof.Gen.ReferenceIdeal
import proofs.«175209_j12481174962620_1_alg».proof.Proof.Gen.Pre_finite_inputs
import proofs.«175209_j12481174962620_1_alg».proof.Proof.Gen.ReferenceIdeal.Run
import proofs.«175209_j12481174962620_1_alg».proof.Proof.KernelRun
import proofs.«175209_j12481174962620_1_alg».proof.Proof.Bridge
import proofs.«175209_j12481174962620_1_alg».proof.Proof.ReferenceFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run to the end; the kernel's result buffer is the fold of its segments over its launch memory, which
    read back to the arguments is the reference's fold of its operations at arguments that agree, the term its run ends at. -/
theorem algebraic : Cert.algebraic_KernelIdeal_ReferenceIdeal := by
  intro m ρ m' ρ' _ hagree
  refine ⟨fun c => Cert.KernelIdeal.Gen.W11 m ρ c (Proc.devRef .tc Cert.KernelIdeal.main_v100),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact ((Cert.Bridge.result_eq m ρ c m' h0 h1 h2 h3 h4 h5 h6 h7).trans (Cert.ReferenceFold.result_fold (F := Ideal) c m')).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
